-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x3 : Shape := ⟨3, ![16, 2048, 3]⟩
abbrev S_ : Shape := ⟨0, ![]⟩

class Facts : Prop where
  bcast_S_S16x2048x3 : S_.BroadcastsInDim S16x2048x3 (![] : Fin 0 → Fin S16x2048x3.rank)
  reducesTo_S16x2048x3_S_d0_1_2 : S16x2048x3.ReducesTo [0, 1, 2] S_
  h_S_ : 0 < S_.numel

variable [Facts]

def fn {F : FTy → Type} [FloatOps F] (main_arg0 : FVec F S16x2048x3 .f32) (main_arg1 : FVec F S16x2048x3 .f32) : IVec S_ 1 :=
  let main_v0 : FVec F S16x2048x3 .f32 := Host.absf main_arg0
  let main_cst : FVec F S_ .f32 := constant S_ .f32 0x7F800000#32
  let main_v1 : FVec F S16x2048x3 .f32 := broadcastInDim S16x2048x3 ![] bcast_S_S16x2048x3 main_cst
  let main_v2 : IVec S16x2048x3 1 := cmpf .olt main_v0 main_v1
  let main_c : IVec S_ 1 := constantI S_ 1 1#1
  let main_v3 : IVec S_ 1 := (fun x v => Host.reduce IntOp.andi x v reducesTo_S16x2048x3_S_d0_1_2 h_S_) main_v2 main_c
  let main_v4 : FVec F S16x2048x3 .f32 := Host.absf main_arg1
  let main_cst_0 : FVec F S_ .f32 := constant S_ .f32 0x7F800000#32
  let main_v5 : FVec F S16x2048x3 .f32 := broadcastInDim S16x2048x3 ![] bcast_S_S16x2048x3 main_cst_0
  let main_v6 : IVec S16x2048x3 1 := cmpf .olt main_v4 main_v5
  let main_c_1 : IVec S_ 1 := constantI S_ 1 1#1
  let main_v7 : IVec S_ 1 := (fun x v => Host.reduce IntOp.andi x v reducesTo_S16x2048x3_S_d0_1_2 h_S_) main_v6 main_c_1
  let main_v8 : IVec S_ 1 := andi main_v3 main_v7
  main_v8
-- ==== Kernel.lean ====
abbrev S16x2048x3 : Shape := ⟨3, ![16, 2048, 3]⟩
abbrev S16x3x2048 : Shape := ⟨3, ![16, 3, 2048]⟩
abbrev S16x2048x1 : Shape := ⟨3, ![16, 2048, 1]⟩
abbrev S16x1x2048 : Shape := ⟨3, ![16, 1, 2048]⟩
abbrev S1x1024x3 : Shape := ⟨3, ![1, 1024, 3]⟩
abbrev S1x3x2048 : Shape := ⟨3, ![1, 3, 2048]⟩
abbrev S1x1024x1 : Shape := ⟨3, ![1, 1024, 1]⟩
abbrev S1x1x2048 : Shape := ⟨3, ![1, 1, 2048]⟩
abbrev S1024x3 : Shape := ⟨2, ![1024, 3]⟩
abbrev S3x2048 : Shape := ⟨2, ![3, 2048]⟩
abbrev S1024 : Shape := ⟨1, ![1024]⟩
abbrev S1024x1 : Shape := ⟨2, ![1024, 1]⟩
abbrev S2048 : Shape := ⟨1, ![2048]⟩
abbrev S1x2048 : Shape := ⟨2, ![1, 2048]⟩
abbrev S1024x2048 : Shape := ⟨2, ![1024, 2048]⟩
abbrev S16x2048 : Shape := ⟨2, ![16, 2048]⟩
abbrev S_ : Shape := ⟨0, ![]⟩

abbrev nBuf : Space → Nat
  | .hbm => 18
  | .vmem => 8
  | .smem => 0
  | _ => 0

abbrev bufTy : (tb : Table) → Fin (tcTables nBuf tb) → BufTy
  | .hbm, ⟨0, _⟩ => ⟨S16x2048x3, .f32⟩
  | .hbm, ⟨1, _⟩ => ⟨S16x2048x3, .f32⟩
  | .hbm, ⟨2, _⟩ => ⟨S16x3x2048, .f32⟩
  | .hbm, ⟨3, _⟩ => ⟨S16x2048x1, .f32⟩
  | .hbm, ⟨4, _⟩ => ⟨S16x1x2048, .f32⟩
  | .hbm, ⟨5, _⟩ => ⟨S16x2048, .f32⟩
  | .hbm, ⟨6, _⟩ => ⟨S16x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x2048, .f32⟩
  | .local _ .vmem, ⟨3, _⟩ => ⟨S1x3x2048, .f32⟩
  | .local _ .vmem, ⟨4, _⟩ => ⟨S1x1024x1, .f32⟩
  | .local _ .vmem, ⟨5, _⟩ => ⟨S1x1024x1, .f32⟩
  | .local _ .vmem, ⟨6, _⟩ => ⟨S1x1x2048, .f32⟩
  | .local _ .vmem, ⟨7, _⟩ => ⟨S1x1x2048, .f32⟩
  | _, _ => ⟨S16x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S16x2048x3_S16x3x2048_0_2_1 : S16x2048x3.Transposes [0, 2, 1] S16x3x2048
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  reduces_S1024x3_S1024 : S1024x3.Reduces [1] S1024
  shapeCasts_S1024_S1024x1 : S1024.ShapeCasts S1024x1
  reduces_S3x2048_S2048 : S3x2048.Reduces [0] S2048
  shapeCasts_S2048_S1x2048 : S2048.ShapeCasts S1x2048
  bitsLt_bf16_f32 : FTy.bits .bf16 < FTy.bits .f32
  broadcasts_S1024x1_S1024x2048 : S1024x1.Broadcasts S1024x2048
  broadcasts_S1x2048_S1024x2048 : S1x2048.Broadcasts S1024x2048
  reduces_S1024x2048_S1024 : S1024x2048.Reduces [1] S1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  reduces_S1024x2048_S2048 : S1024x2048.Reduces [0] S2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  shapeCasts_S16x2048x1_S16x2048 : S16x2048x1.ShapeCasts S16x2048
  shapeCasts_S16x1x2048_S16x2048 : S16x1x2048.ShapeCasts S16x2048
  reducesTo_S16x2048_S_d0_1 : S16x2048.ReducesTo [0, 1] S_
  h_S_ : 0 < S_.numel
  dot_S1024x3_S3x2048_S1024x2048_1_0_0_1_n_n_wf : DotDims.WF S1024x3 S3x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S16x2048x3.size a
  hwx0_0 : ∀ i : grid0.Coords, EltTy.bits .f32 = 32 ∨ (Rect.block (s := S16x2048x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x2048.size a ≤ S16x3x2048.size a
  hwx0_1 : ∀ i : grid0.Coords, EltTy.bits .f32 = 32 ∨ (Rect.block (s := S16x3x2048) S1x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S16x2048x1.size a
  hwx0_2 : ∀ i : grid0.Coords, EltTy.bits .f32 = 32 ∨ (Rect.block (s := S16x2048x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S16x1x2048.size a
  hwx0_3 : ∀ i : grid0.Coords, EltTy.bits .f32 = 32 ∨ (Rect.block (s := S16x1x2048) S1x1x2048.size (cc0_transform_3 i) (hinb0_3 i)).WholeWords (EltTy.packing .f32)

variable [Facts₀]

def dot_S1024x3_S3x2048_S1024x2048_1_0_0_1_n_n : DotDims S1024x3 S3x2048 S1024x2048 where
  lhsContracting := [1]
  rhsContracting := [0]
  lhsNonContracting := [0]
  rhsNonContracting := [1]
  lhsBatch := []
  rhsBatch := []
  wf := dot_S1024x3_S3x2048_S1024x2048_1_0_0_1_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x3 : Shape := ⟨3, ![16, 2048, 3]⟩
abbrev S16x2048x1x3 : Shape := ⟨4, ![16, 2048, 1, 3]⟩
abbrev S16x1x2048x3 : Shape := ⟨4, ![16, 1, 2048, 3]⟩
abbrev S16x2048x2048x3 : Shape := ⟨4, ![16, 2048, 2048, 3]⟩
abbrev S_ : Shape := ⟨0, ![]⟩
abbrev S16x2048x2048 : Shape := ⟨3, ![16, 2048, 2048]⟩
abbrev S16x2048 : Shape := ⟨2, ![16, 2048]⟩

abbrev nBuf : Space → Nat
  | .hbm => 25
  | .vmem => 0
  | .smem => 0
  | _ => 0

abbrev bufTy : (tb : Table) → Fin (tcTables nBuf tb) → BufTy
  | .hbm, ⟨0, _⟩ => ⟨S16x2048x3, .f32⟩
  | .hbm, ⟨1, _⟩ => ⟨S16x2048x3, .f32⟩
  | .hbm, ⟨2, _⟩ => ⟨S16x2048x1x3, .f32⟩
  | .hbm, ⟨3, _⟩ => ⟨S16x1x2048x3, .f32⟩
  | .hbm, ⟨4, _⟩ => ⟨S16x2048x2048x3, .f32⟩
  | .hbm, ⟨5, _⟩ => ⟨S16x2048x2048x3, .f32⟩
  | .hbm, ⟨6, _⟩ => ⟨S16x2048x2048x3, .f32⟩
  | .hbm, ⟨7, _⟩ => ⟨S16x2048x2048x3, .f32⟩
  | .hbm, ⟨8, _⟩ => ⟨S_, .f32⟩
  | .hbm, ⟨9, _⟩ => ⟨S16x2048x2048, .f32⟩
  | .hbm, ⟨10, _⟩ => ⟨S_, .f32⟩
  | .hbm, ⟨11, _⟩ => ⟨S16x2048, .f32⟩
  | .hbm, ⟨12, _⟩ => ⟨S_, .f32⟩
  | .hbm, ⟨13, _⟩ => ⟨S16x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S16x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S16x2048x3_S16x2048x1x3_0_1_3 : S16x2048x3.BroadcastsInDim S16x2048x1x3 (![0, 1, 3] : Fin 3 → Fin S16x2048x1x3.rank)
  bcast_S16x2048x3_S16x1x2048x3_0_2_3 : S16x2048x3.BroadcastsInDim S16x1x2048x3 (![0, 2, 3] : Fin 3 → Fin S16x1x2048x3.rank)
  bcast_S16x2048x1x3_S16x2048x2048x3_0_1_2_3 : S16x2048x1x3.BroadcastsInDim S16x2048x2048x3 (![0, 1, 2, 3] : Fin 4 → Fin S16x2048x2048x3.rank)
  bcast_S16x1x2048x3_S16x2048x2048x3_0_1_2_3 : S16x1x2048x3.BroadcastsInDim S16x2048x2048x3 (![0, 1, 2, 3] : Fin 4 → Fin S16x2048x2048x3.rank)
  reducesTo_S16x2048x2048x3_S16x2048x2048_d3 : S16x2048x2048x3.ReducesTo [3] S16x2048x2048
  h_S_ : 0 < S_.numel
  reducesTo_S16x2048x2048_S16x2048_d2 : S16x2048x2048.ReducesTo [2] S16x2048
  reducesTo_S16x2048x2048_S16x2048_d1 : S16x2048x2048.ReducesTo [1] S16x2048
  reducesTo_S16x2048_S_d0_1 : S16x2048.ReducesTo [0, 1] S_

variable [Facts₀]

class Facts : Prop extends Facts₀ where

variable [Facts]
-- ==== Proof.SqDist.lean ====
/-
  Two facts about extended reals that the rest of the proof rests on.

  (1) For two points of three REAL coordinates, the expanded form |a|² + |b|² − 2⟨a, b⟩, cut off below at zero,
      is the squared distance Σₖ (aₖ − bₖ)²: over the reals the two agree by expanding the squares, and the squared
      distance is nonnegative, so the cut-off does nothing. (With an infinite coordinate the expanded form is
      ∞ − ∞; this is where finiteness of the inputs is used.)

  (2) The least of a finite family, taken from the top element: what it is bounded below by, and that the least
      over 2048 indices is the least of the leasts over the two halves (with a further top element thrown in).
-/
import Mathlib.Data.EReal.Basic
import Mathlib.Data.EReal.Operations
import Mathlib.Algebra.BigOperators.Fin
import Mathlib.Data.Finset.Fold
import Mathlib.Tactic

noncomputable section

namespace Chamfer

/-- The expanded form of the squared distance, cut off at zero, is the squared distance (real coordinates). -/
theorem expand_eq_sqdist (a b : Fin 3 → ℝ) :
    max (((∑ k : Fin 3, ((a k : ℝ) : EReal) * ((a k : ℝ) : EReal)) + ∑ k : Fin 3, ((b k : ℝ) : EReal) * ((b k : ℝ) : EReal))
        - ((2 : ℝ) : EReal) * ∑ k : Fin 3, ((a k : ℝ) : EReal) * ((b k : ℝ) : EReal)) (0 : EReal)
      = ∑ k : Fin 3, (((a k : ℝ) : EReal) - ((b k : ℝ) : EReal)) * (((a k : ℝ) : EReal) - ((b k : ℝ) : EReal)) := by
  simp only [Fin.sum_univ_three]
  have hn : (0 : ℝ) ≤ (a 0 - b 0) * (a 0 - b 0) + (a 1 - b 1) * (a 1 - b 1) + (a 2 - b 2) * (a 2 - b 2) :=
    add_nonneg (add_nonneg (mul_self_nonneg _) (mul_self_nonneg _)) (mul_self_nonneg _)
  have hl : (((a 0 : ℝ) : EReal) * (a 0 : ℝ) + ((a 1 : ℝ) : EReal) * (a 1 : ℝ) + ((a 2 : ℝ) : EReal) * (a 2 : ℝ)
        + (((b 0 : ℝ) : EReal) * (b 0 : ℝ) + ((b 1 : ℝ) : EReal) * (b 1 : ℝ) + ((b 2 : ℝ) : EReal) * (b 2 : ℝ))
        - ((2 : ℝ) : EReal) * (((a 0 : ℝ) : EReal) * (b 0 : ℝ) + ((a 1 : ℝ) : EReal) * (b 1 : ℝ) + ((a 2 : ℝ) : EReal) * (b 2 : ℝ)))
      = (((a 0 - b 0) * (a 0 - b 0) + (a 1 - b 1) * (a 1 - b 1) + (a 2 - b 2) * (a 2 - b 2) : ℝ) : EReal) := by
    rw [← EReal.coe_mul, ← EReal.coe_mul, ← EReal.coe_mul, ← EReal.coe_mul, ← EReal.coe_mul, ← EReal.coe_mul,
      ← EReal.coe_mul, ← EReal.coe_mul, ← EReal.coe_mul, ← EReal.coe_add, ← EReal.coe_add, ← EReal.coe_add,
      ← EReal.coe_add, ← EReal.coe_add, ← EReal.coe_add, ← EReal.coe_add, ← EReal.coe_mul, ← EReal.coe_sub]
    exact congrArg _ (by ring)
  have hr : (((a 0 : ℝ) : EReal) - (b 0 : ℝ)) * (((a 0 : ℝ) : EReal) - (b 0 : ℝ))
        + (((a 1 : ℝ) : EReal) - (b 1 : ℝ)) * (((a 1 : ℝ) : EReal) - (b 1 : ℝ))
        + (((a 2 : ℝ) : EReal) - (b 2 : ℝ)) * (((a 2 : ℝ) : EReal) - (b 2 : ℝ))
      = (((a 0 - b 0) * (a 0 - b 0) + (a 1 - b 1) * (a 1 - b 1) + (a 2 - b 2) * (a 2 - b 2) : ℝ) : EReal) := by
    rw [← EReal.coe_sub, ← EReal.coe_sub, ← EReal.coe_sub, ← EReal.coe_mul, ← EReal.coe_mul, ← EReal.coe_mul,
      ← EReal.coe_add, ← EReal.coe_add]
  rw [hl, hr]
  exact max_eq_left (by exact_mod_cast hn)

/-- The least of a finite family of extended reals, starting from the top element. -/
def least {ι : Type} [Fintype ι] (f : ι → EReal) : EReal := (Finset.univ : Finset ι).fold min ⊤ f

theorem le_least_iff {ι : Type} [Fintype ι] (f : ι → EReal) (z : EReal) : z ≤ least f ↔ ∀ k, z ≤ f k := by
  unfold least
  rw [Finset.le_fold_min]
  exact ⟨fun h k => h.2 k (Finset.mem_univ k), fun h => ⟨le_top, fun k _ => h k⟩⟩

theorem least_congr {ι : Type} [Fintype ι] {f g : ι → EReal} (h : ∀ k, f k = g k) : least f = least g :=
  congrArg least (funext h)

/-- The least over 2048 indices from the leasts over its two halves of 1024, an extra top element changing nothing. -/
theorem least_halves (f : Fin 2048 → EReal) :
    min (min ⊤ (least fun n : Fin 1024 => f ⟨n.val, by have := n.isLt; omega⟩))
        (least fun n : Fin 1024 => f ⟨1024 + n.val, by have := n.isLt; omega⟩) = least f := by
  refine eq_of_forall_le_iff fun z => ?_
  rw [le_min_iff, le_min_iff, le_least_iff, le_least_iff, le_least_iff]
  constructor
  · rintro ⟨⟨_, h0⟩, h1⟩ k
    by_cases hk : k.val < 1024
    · exact h0 ⟨k.val, hk⟩
    · have h := h1 ⟨k.val - 1024, by have := k.isLt; omega⟩
      have e : (⟨1024 + (k.val - 1024), by have := k.isLt; omega⟩ : Fin 2048) = k := Fin.ext (by show 1024 + (k.val - 1024) = k.val; omega)
      simpa only [e] using h
  · intro h
    exact ⟨⟨le_top, fun n => h _⟩, fun n => h _⟩

end Chamfer

end
-- ==== Proof.ReduceAt.lean ====
/-
  Reductions along one axis, read at an index, over the extended reals.

  A sum along the second axis of an [m, n] array at row p is the sum over k of the entries (p, k); along the first
  axis at column q it is the sum over k of the entries (k, q). A least-element reduction started from +∞ is, in the
  same way, the least of a row or of a column — on the accelerator's vectors and, for an [a, b, c] array reduced
  along its last or its middle axis, in a host reduction. The reduced index with the dropped coordinate put back is
  the index written coordinate by coordinate, which is all that has to be checked.
-/
import Idealize.ShloMosaic.Lib.ValueIdx
import Idealize.ShloMosaic.Lib.Pipeline.Value
import Idealize.ShloMosaic.PureOps.Ideal.Laws
import proofs.«128590_j18262200943266_2_alg».proof.Proof.SqDist

noncomputable section

namespace Chamfer

open Idealize.ShloMosaic Idealize.ShloMosaic.ValueIdx

/-- The bit pattern of +∞ denotes the top element. -/
theorem ofBits_inf : Ideal.ofBits .f32 0x7F800000#32 = (⊤ : EReal) := by simp [Ideal.ofBits, Ideal.ieee]

/-- The bit pattern of 2.0 denotes the real number two. -/
theorem ofBits_two : Ideal.ofBits .f32 0x40000000#32 = ((2 : ℝ) : EReal) := by
  simp [Ideal.ofBits, Ideal.ieee, -EReal.coe_mul]; norm_num

/-! ## The dropped coordinate put back -/

theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

theorem lift_col {m n : ℕ} (h : (⟨2, ![m, n]⟩ : Shape).Reduces [0] (⟨1, ![n]⟩ : Shape)) (q : Fin n)
    (k : Fin ((⟨2, ![m, n]⟩ : Shape).size 0)) : h.lift (ix1 q) k = ix2 (⟨k.val, k.isLt⟩ : Fin m) q := by
  funext c; apply Fin.ext
  fin_cases c <;> rfl

theorem lift_last {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

theorem lift_mid {a b c : ℕ} (h : (⟨3, ![a, b, c]⟩ : Shape).Reduces [1] (⟨2, ![a, c]⟩ : Shape)) (p : Fin a) (q : Fin c)
    (k : Fin ((⟨3, ![a, b, c]⟩ : Shape).size 1)) : h.lift (ix2 p q) k = ix3 p (⟨k.val, k.isLt⟩ : Fin b) q := by
  funext d; apply Fin.ext
  fin_cases d <;> rfl

/-! ## Sums -/

/-- The sum along the second axis, at row `p`. -/
theorem rowSum_apply {m n : ℕ} (v : FVec Ideal ⟨2, ![m, n]⟩ .f32) (acc : BitVec 32)
    (h : (⟨2, ![m, n]⟩ : Shape).Reduces [1] (⟨1, ![m]⟩ : Shape)) (hφ : FKind.Formats .f32)
    (hacc : acc = FKind.add.neutral .f32 hφ) (p : Fin m) :
    multiReduction .add [1] (⟨1, ![m]⟩ : Shape) v acc h hφ hacc (ix1 p) = ∑ k : Fin n, v (ix2 p k) :=
  (Ideal.multiReduction_add_single v acc h hφ hacc (ix1 p)).trans
    (Finset.sum_congr rfl fun k _ => congrArg v (lift_row h p k))

/-- The sum along the first axis, at column `q`. -/
theorem colSum_apply {m n : ℕ} (v : FVec Ideal ⟨2, ![m, n]⟩ .f32) (acc : BitVec 32)
    (h : (⟨2, ![m, n]⟩ : Shape).Reduces [0] (⟨1, ![n]⟩ : Shape)) (hφ : FKind.Formats .f32)
    (hacc : acc = FKind.add.neutral .f32 hφ) (q : Fin n) :
    multiReduction .add [0] (⟨1, ![n]⟩ : Shape) v acc h hφ hacc (ix1 q) = ∑ k : Fin m, v (ix2 k q) :=
  (Ideal.multiReduction_add_single v acc h hφ hacc (ix1 q)).trans
    (Finset.sum_congr rfl fun k _ => congrArg v (lift_col h q k))

/-! ## Least elements, from +∞ -/

/-- The least element along the second axis, at row `p`. -/
theorem rowLeast_apply {m n : ℕ} (v : FVec Ideal ⟨2, ![m, n]⟩ .f32)
    (h : (⟨2, ![m, n]⟩ : Shape).Reduces [1] (⟨1, ![m]⟩ : Shape)) (hφ : FKind.Formats .f32)
    (hacc : (0x7F800000#32 : BitVec 32) = FKind.minimumf.neutral .f32 hφ) (p : Fin m) :
    multiReduction .minimumf [1] (⟨1, ![m]⟩ : Shape) v 0x7F800000#32 h hφ hacc (ix1 p) = least fun k : Fin n => v (ix2 p k) := by
  rw [multiReduction_minimumf_eq_fold]
  refine (h.fold_filter_drop_single _ _ v (ix1 p)).trans ?_
  unfold least
  rw [show (FloatOps.ofBits (F := Ideal) .f32 0x7F800000#32) = (⊤ : EReal) from ofBits_inf]
  exact congrArg (fun f => Finset.fold min (⊤ : EReal) f Finset.univ) (funext fun k => congrArg v (lift_row h p k))

/-- The least element along the first axis, at column `q`. -/
theorem colLeast_apply {m n : ℕ} (v : FVec Ideal ⟨2, ![m, n]⟩ .f32)
    (h : (⟨2, ![m, n]⟩ : Shape).Reduces [0] (⟨1, ![n]⟩ : Shape)) (hφ : FKind.Formats .f32)
    (hacc : (0x7F800000#32 : BitVec 32) = FKind.minimumf.neutral .f32 hφ) (q : Fin n) :
    multiReduction .minimumf [0] (⟨1, ![n]⟩ : Shape) v 0x7F800000#32 h hφ hacc (ix1 q) = least fun k : Fin m => v (ix2 k q) := by
  rw [multiReduction_minimumf_eq_fold]
  refine (h.fold_filter_drop_single _ _ v (ix1 q)).trans ?_
  unfold least
  rw [show (FloatOps.ofBits (F := Ideal) .f32 0x7F800000#32) = (⊤ : EReal) from ofBits_inf]
  exact congrArg (fun f => Finset.fold min (⊤ : EReal) f Finset.univ) (funext fun k => congrArg v (lift_col h q k))

/-- A host least-element reduction along the LAST axis of an [a, b, c] array, from +∞, at (p, q). -/
theorem hostLeast_last {a b c : ℕ} (x : (⟨3, ![a, b, c]⟩ : Shape).Idx → Ideal .f32)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < (⟨0, ![]⟩ : Shape).numel)
    (p : Fin a) (q : Fin b) :
    Host.reduce FloatOps.minimumf x (constant (F := Ideal) (⟨0, ![]⟩ : Shape) .f32 0x7F800000#32) h' hu (ix2 p q)
      = least fun k : Fin c => x (ix3 p q k) := by
  rw [Host.reduce_eq_fold_single FloatOps.minimumf x _ h' h hu]
  unfold least
  rw [show (constant (F := Ideal) (⟨0, ![]⟩ : Shape) .f32 0x7F800000#32) (Shape.Idx.first hu) = (⊤ : EReal) from ofBits_inf]
  exact congrArg (fun f => Finset.fold min (⊤ : EReal) f Finset.univ) (funext fun k => congrArg x (lift_last h p q k))

/-- A host least-element reduction along the MIDDLE axis of an [a, b, c] array, from +∞, at (p, q). -/
theorem hostLeast_mid {a b c : ℕ} (x : (⟨3, ![a, b, c]⟩ : Shape).Idx → Ideal .f32)
    (h' : (⟨3, ![a, b, c]⟩ : Shape).ReducesTo [1] (⟨2, ![a, c]⟩ : Shape))
    (h : (⟨3, ![a, b, c]⟩ : Shape).Reduces [1] (⟨2, ![a, c]⟩ : Shape)) (hu : 0 < (⟨0, ![]⟩ : Shape).numel)
    (p : Fin a) (q : Fin c) :
    Host.reduce FloatOps.minimumf x (constant (F := Ideal) (⟨0, ![]⟩ : Shape) .f32 0x7F800000#32) h' hu (ix2 p q)
      = least fun k : Fin b => x (ix3 p k q) := by
  rw [Host.reduce_eq_fold_single FloatOps.minimumf x _ h' h hu]
  unfold least
  rw [show (constant (F := Ideal) (⟨0, ![]⟩ : Shape) .f32 0x7F800000#32) (Shape.Idx.first hu) = (⊤ : EReal) from ofBits_inf]
  exact congrArg (fun f => Finset.fold min (⊤ : EReal) f Finset.univ) (funext fun k => congrArg x (lift_mid h p q k))

end Chamfer

end
-- ==== Proof.LibColumn.lean ====
/-
  Column layouts read at an index: a length-`a` vector as an `[a, 1]` column and back, and a column broadcast
  along the second axis. Row-major position of `(i, 0)` in `[a, 1]` is `i · 1 + 0 = i`, the position of `i` in `[a]`;
  a broadcast repeats the operand along each axis where the operand's extent is one.
-/
import Idealize.ShloMosaic.Lib.Pipeline.Value
import Idealize.ShloMosaic.Lib.ValueIdx

noncomputable section

namespace Cert.Column

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.KernelBlock.lean ====
/-
  What the kernel body computes at one grid point, entry by entry, over the extended reals.

  The body holds a tile of 1024 points a (rows of the first input block) and all 2048 points b (columns of the
  transposed second input block). Its distance tile has, at (p, q), the expanded form
      max(Σₖ a[p,k]² + Σₖ b[k,q]² − 2·Σₖ a[p,k]·b[k,q], 0)
  (the two rounding steps before the matrix product are the identity on extended reals). The first output block is the
  least of each row of the tile; the second output block is the least of each column, combined by min with
  what the block held before.
-/
import proofs.«128590_j18262200943266_2_alg».proof.Proof.Gen.KernelIdeal.Skeleton
import Idealize.ShloMosaic.Lib.ValueLayout
import proofs.«128590_j18262200943266_2_alg».proof.Proof.ReduceAt
import proofs.«128590_j18262200943266_2_alg».proof.Proof.LibColumn

noncomputable section

namespace Cert.KernelIdeal.Block

open Cert.KernelIdeal Cert.KernelIdeal.Gen Idealize.ShloMosaic Idealize.ShloMosaic.ValueIdx Chamfer

/-- The expanded form of the squared distance of two points given by their three coordinates, cut off at zero. -/
def entry (a b : Fin 3 → EReal) : EReal :=
  max (((∑ k : Fin 3, a k * a k) + ∑ k : Fin 3, b k * b k) - ((2 : ℝ) : EReal) * ∑ k : Fin 3, a k * b k) 0

/-- On real coordinates it is the squared distance. -/
theorem entry_real (a b : Fin 3 → ℝ) :
    entry (fun k => ((a k : ℝ) : EReal)) (fun k => ((b k : ℝ) : EReal))
      = ∑ k : Fin 3, (((a k : ℝ) : EReal) - ((b k : ℝ) : EReal)) * (((a k : ℝ) : EReal) - ((b k : ℝ) : EReal)) :=
  expand_eq_sqdist a b

/-- The matrix product of a [1024, 3] by a [3, 2048] array into a zero accumulator, at (p, q): Σₖ a[p,k]·b[k,q]. -/
theorem dot_apply (a : FVec Ideal S1024x3 .bf16) (b : FVec Ideal S3x2048 .bf16) (p : Fin 1024) (q : Fin 2048) :
    matmul dot_S1024x3_S3x2048_S1024x2048_1_0_0_1_n_n none a b (constant (F := Ideal) S1024x2048 .f32 0x00000000#32) (ix2 p q)
      = ∑ k : Fin 3, a (ix2 p k) * b (ix2 k q) := by
  refine (Ideal.matmul_constant_zero_apply _ none a b (ix2 p q)).trans ?_
  refine (Equiv.sum_comp (contrEquiv1 dot_S1024x3_S3x2048_S1024x2048_1_0_0_1_n_n 3 rfl rfl).symm _).symm.trans ?_
  refine Finset.sum_congr rfl fun k _ => ?_
  have hl : dot_S1024x3_S3x2048_S1024x2048_1_0_0_1_n_n.lhsIdx (ix2 p q)
      ((contrEquiv1 dot_S1024x3_S3x2048_S1024x2048_1_0_0_1_n_n 3 rfl rfl).symm k) = ix2 p k := by
    funext c; apply Fin.ext
    match c with
    | ⟨0, _⟩ => rfl
    | ⟨1, _⟩ =>
      exact (DotDims.lhsIdx_val_of_single (d := dot_S1024x3_S3x2048_S1024x2048_1_0_0_1_n_n) (cl := 1) rfl _ _).trans
        (contrEquiv1_symm_val _ 3 rfl rfl k)
  have hr : dot_S1024x3_S3x2048_S1024x2048_1_0_0_1_n_n.rhsIdx (ix2 p q)
      ((contrEquiv1 dot_S1024x3_S3x2048_S1024x2048_1_0_0_1_n_n 3 rfl rfl).symm k) = ix2 k q := by
    funext c; apply Fin.ext
    match c with
    | ⟨0, _⟩ =>
      exact (DotDims.rhsIdx_val_of_single (d := dot_S1024x3_S3x2048_S1024x2048_1_0_0_1_n_n) (cr := 0) rfl _ _).trans
        (contrEquiv1_symm_val _ 3 rfl rfl k)
    | ⟨1, _⟩ => rfl
  rw [hl, hr]

/-- The row sums of squares, laid out as a column and repeated along the rows of the tile, at (p, q). -/
theorem rowsq_apply (v : FVec Ideal S1024x3 .f32) (acc : BitVec 32) (hr : S1024x3.Reduces [1] S1024)
    (hφ : FKind.Formats .f32) (hacc : acc = FKind.add.neutral .f32 hφ) (hsc : S1024.ShapeCasts S1024x1)
    (hb : S1024x1.Broadcasts S1024x2048) (p : Fin 1024) (q : Fin 2048) :
    broadcastTo S1024x2048 (shapeCast S1024x1 (multiReduction .add [1] S1024 (mulf v v) acc hr hφ hacc) hsc) hb (ix2 p q)
      = ∑ k : Fin 3, v (ix2 p k) * v (ix2 p k) :=
  (Cert.Column.broadcastTo_a1_ab_apply _ hb p q).trans
    ((Cert.Column.shapeCast_a_a1_apply _ hsc p 0).trans (rowSum_apply (mulf v v) acc hr hφ hacc p))

/-- The column sums of squares, laid out as a row and repeated down the tile, at (p, q). -/
theorem colsq_apply (v : FVec Ideal S3x2048 .f32) (acc : BitVec 32) (hr : S3x2048.Reduces [0] S2048)
    (hφ : FKind.Formats .f32) (hacc : acc = FKind.add.neutral .f32 hφ) (hsc : S2048.ShapeCasts S1x2048)
    (hb : S1x2048.Broadcasts S1024x2048) (p : Fin 1024) (q : Fin 2048) :
    broadcastTo S1024x2048 (shapeCast S1x2048 (multiReduction .add [0] S2048 (mulf v v) acc hr hφ hacc) hsc) hb (ix2 p q)
      = ∑ k : Fin 3, v (ix2 k q) * v (ix2 k q) :=
  (broadcastTo_1b_ab_apply _ hb p q).trans
    ((shapeCast_a_1a_apply _ hsc 0 q).trans (colSum_apply (mulf v v) acc hr hφ hacc q))

/-- The distance tile at (p, q): the expanded form over row p of the first block and column q of the second. -/
theorem pay2_apply (x0 : Vec Ideal S1x1024x3 .f32) (x1 : Vec Ideal S1x3x2048 .f32) (p : Fin 1024) (q : Fin 2048) :
    k0_pay2 (F := Ideal) x0 x1 (ix2 p q)
      = entry (fun k => x0 (ix3 (0 : Fin 1) p k)) (fun k => x1 (ix3 (0 : Fin 1) k q)) := by
  unfold k0_pay2 entry
  refine congrArg₂ max (congrArg₂ (fun s t : EReal => s - t)
    (congrArg₂ (fun s t : EReal => s + t) ((rowsq_apply _ _ _ _ _ _ _ p q).trans ?_) ((colsq_apply _ _ _ _ _ _ _ p q).trans ?_))
    (congrArg₂ (fun s t : EReal => s * t) ofBits_two ((dot_apply _ _ p q).trans ?_))) Ideal.ofBits_zero_f32
  · exact Finset.sum_congr rfl fun k _ => by rw [shapeCast_1ab_ab_apply]
  · exact Finset.sum_congr rfl fun k _ => by rw [shapeCast_1ab_ab_apply]
  · refine Finset.sum_congr rfl fun k _ => ?_
    show shapeCast S1024x3 x0 _ (ix2 p k) * shapeCast S3x2048 x1 _ (ix2 k q) = _
    rw [shapeCast_1ab_ab_apply, shapeCast_1ab_ab_apply]

/-- The first output block at row p: the least of row p of the distance tile. -/
theorem pay3_apply (x0 : Vec Ideal S1x1024x3 .f32) (x1 : Vec Ideal S1x3x2048 .f32) (u : Fin 1) (p : Fin 1024) (w : Fin 1) :
    k0_pay3 (F := Ideal) x0 x1 (ix3 u p w) = least fun q : Fin 2048 => k0_pay2 (F := Ideal) x0 x1 (ix2 p q) := by
  unfold k0_pay3
  exact (shapeCast_ab_1ab_apply _ _ u p w).trans
    ((Cert.Column.shapeCast_a_a1_apply _ _ p w).trans (rowLeast_apply (k0_pay2 (F := Ideal) x0 x1) _ _ _ p))

/-- The running column minimum at column q: what the block held, against the least of column q of the tile. -/
theorem pay5_apply (x0 : Vec Ideal S1x1024x3 .f32) (x1 : Vec Ideal S1x3x2048 .f32) (y : Vec Ideal S1x1x2048 .f32)
    (u : Fin 1) (q : Fin 2048) :
    k0_pay5 (F := Ideal) x0 x1 y (ix2 u q)
      = min (y (ix3 (0 : Fin 1) u q)) (least fun p : Fin 1024 => k0_pay2 (F := Ideal) x0 x1 (ix2 p q)) := by
  unfold k0_pay5
  exact congrArg₂ min (shapeCast_1ab_ab_apply _ _ u q)
    ((shapeCast_a_1a_apply _ _ u q).trans (colLeast_apply (k0_pay2 (F := Ideal) x0 x1) _ _ _ q))

/-- A [1, 2048] array given a leading unit axis reads the same entry. -/
theorem pay1_apply (v : FVec Ideal S1x2048 .f32) (u w : Fin 1) (q : Fin 2048) :
    k0_pay1 (F := Ideal) v (ix3 u w q) = v (ix2 w q) := by
  unfold k0_pay1
  exact shapeCast_ab_1ab_apply _ _ u w q

/-- The block the first tile of a batch starts from: +∞ everywhere. -/
theorem pay4_apply (j : S1x1x2048.Idx) : k0_pay4 (F := Ideal) j = (⊤ : EReal) := by
  unfold k0_pay4
  obtain ⟨u, w, q, rfl⟩ : ∃ (u w : Fin 1) (q : Fin 2048), j = ix3 u w q := ⟨j 0, j 1, j 2, eq_ix3 j⟩
  exact (shapeCast_ab_1ab_apply _ _ u w q).trans ofBits_inf

end Cert.KernelIdeal.Block

end
-- ==== Proof.KernelPieces.lean ====
/-
  What one run of the kernel body leaves in its two output blocks, as values of the blocks it read.

  The body covers each output block with whole-block stores, so what a block holds afterwards is the value of the last
  store into it. The first output block is stored once: the row minima of the distance tile. The second output block:
  on the first tile of a batch the body first stores +∞ everywhere, reads that back, and stores its minimum with the
  tile's column minima; on the second tile it reads what the first tile left and stores the minimum with its own column
  minima.
-/
import proofs.«128590_j18262200943266_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0, 0] : Fin 3 → Nat) = fun _ => 0 := funext fun a => by fin_cases a <;> rfl

/-- First tile of a batch, first output block: the row minima of the tile. -/
theorem out_A_2 (c : Dev nD) (i : grid0.Coords) (a2 : Memref sig .tc .vmem S1x1024x3 .f32) (h2 : a2.IsWhole)
    (a3 : Memref sig .tc .vmem S1x3x2048 .f32) (h3 : a3.IsWhole) (a4 : Memref sig .tc .vmem S1x1024x1 .f32) (h4 : a4.IsWhole)
    (a5 : Memref sig .tc .vmem S1x1x2048 .f32) (h5 : a5.IsWhole) (hc : cond0_0 i)
    (x0 : Vec F S1x1024x3 .f32) (x1 : Vec F S1x3x2048 .f32) :
    out0_A_2 c i a2 h2 a3 h3 a4 h4 a5 h5 hc x0 x1 = k0_pay3 x0 x1 := by
  unfold out0_A_2
  rw [View.read_writes_eq_canon _ _ _ (cover0_A_2 c i a2 h2 a3 h3 a4 h4 a5 h5 hc x0 x1)]
  unfold kernelRun0_A
  dsimp only
  rw [View.canon_unit_zero hz]
  simp only [View.readAt_eq_ld, h2.read_unread, h3.read_unread, View.ld_unit_zero (S := S1x1024x3) hz,
    View.ld_unit_zero (S := S1x3x2048) hz]

/-- First tile of a batch, second output block: the minimum of +∞ with the tile's column minima. -/
theorem out_A_3 (c : Dev nD) (i : grid0.Coords) (a2 : Memref sig .tc .vmem S1x1024x3 .f32) (h2 : a2.IsWhole)
    (a3 : Memref sig .tc .vmem S1x3x2048 .f32) (h3 : a3.IsWhole) (a4 : Memref sig .tc .vmem S1x1024x1 .f32) (h4 : a4.IsWhole)
    (a5 : Memref sig .tc .vmem S1x1x2048 .f32) (h5 : a5.IsWhole) (hc : cond0_0 i)
    (x0 : Vec F S1x1024x3 .f32) (x1 : Vec F S1x3x2048 .f32) :
    out0_A_3 c i a2 h2 a3 h3 a4 h4 a5 h5 hc x0 x1 = k0_pay1 (k0_pay5 x0 x1 k0_pay4) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x2048) hz]
  simp only [View.readAt_eq_ld, h2.read_unread, h3.read_unread, View.ld_unit_zero (S := S1x1024x3) hz,
    View.ld_unit_zero (S := S1x3x2048) hz, View.readCov_unit_zero (S := S1x1x2048) _ hz]

/-- Second tile of a batch, first output block: the row minima of the tile. -/
theorem out_B_2 (c : Dev nD) (i : grid0.Coords) (a2 : Memref sig .tc .vmem S1x1024x3 .f32) (h2 : a2.IsWhole)
    (a3 : Memref sig .tc .vmem S1x3x2048 .f32) (h3 : a3.IsWhole) (a4 : Memref sig .tc .vmem S1x1024x1 .f32) (h4 : a4.IsWhole)
    (a5 : Memref sig .tc .vmem S1x1x2048 .f32) (h5 : a5.IsWhole) (hc : ¬cond0_0 i)
    (x0 : Vec F S1x1024x3 .f32) (x1 : Vec F S1x3x2048 .f32) (xo3 : Vec F S1x1x2048 .f32) :
    out0_B_2 c i a2 h2 a3 h3 a4 h4 a5 h5 hc x0 x1 xo3 = k0_pay3 x0 x1 := by
  unfold out0_B_2
  rw [View.read_writes_eq_canon _ _ _ (cover0_B_2 c i a2 h2 a3 h3 a4 h4 a5 h5 hc x0 x1 xo3)]
  unfold kernelRun0_B
  dsimp only
  rw [View.canon_unit_zero hz]
  simp only [View.readAt_eq_ld, h2.read_unread, h3.read_unread, View.ld_unit_zero (S := S1x1024x3) hz,
    View.ld_unit_zero (S := S1x3x2048) hz]

/-- Second tile of a batch, second output block: the minimum of what the block held with the tile's column minima. -/
theorem out_B_3 (c : Dev nD) (i : grid0.Coords) (a2 : Memref sig .tc .vmem S1x1024x3 .f32) (h2 : a2.IsWhole)
    (a3 : Memref sig .tc .vmem S1x3x2048 .f32) (h3 : a3.IsWhole) (a4 : Memref sig .tc .vmem S1x1024x1 .f32) (h4 : a4.IsWhole)
    (a5 : Memref sig .tc .vmem S1x1x2048 .f32) (h5 : a5.IsWhole) (hc : ¬cond0_0 i)
    (x0 : Vec F S1x1024x3 .f32) (x1 : Vec F S1x3x2048 .f32) (xo3 : Vec F S1x1x2048 .f32) :
    out0_B_3 c i a2 h2 a3 h3 a4 h4 a5 h5 hc x0 x1 xo3 = k0_pay1 (k0_pay5 x0 x1 xo3) := by
  unfold out0_B_3
  rw [View.read_writes_eq_canon _ _ _ (cover0_B_3 c i a2 h2 a3 h3 a4 h4 a5 h5 hc x0 x1 xo3)]
  unfold kernelRun0_B
  dsimp only
  sl_unfold_words
  rw [View.canon_unit_zero hz]
  simp only [View.readAt_eq_ld, h2.read_unread, h3.read_unread, h5.read_unread, View.ld_unit_zero (S := S1x1024x3) hz,
    View.ld_unit_zero (S := S1x3x2048) hz, View.ld_unit_zero (S := S1x1x2048) hz]

end Cert.KernelIdeal.Pieces

end
-- ==== Proof.KernelMins.lean ====
/-
  The two arrays the kernel's grid leaves, as functions of its two input arrays.

  Write A for the first input [16, 2048, 3] and B for the second after its transposition to [16, 3, 2048], and
  d(b, n, q) for the expanded squared distance between point n of batch b in A and point q of batch b in B.
  The grid has 32 points; point t works on batch t / 2 and on the rows 1024·(t mod 2) … 1024·(t mod 2) + 1023 of A,
  with all 2048 columns of B.
  · The first output [16, 2048, 1] ends with, at (b, n, 0), the least over q of d(b, n, q): each point writes the row
    minima of its own 1024 rows, and the 32 blocks tile the array.
  · The second output [16, 1, 2048] ends with, at (b, 0, q), the least over ALL n of d(b, n, q): the even point of
    batch b leaves min(+∞, least over the first 1024 rows), the odd point combines that with the least over the last
    1024 rows and is the one that writes the block back; the least over the two halves is the least over all rows.
-/
import proofs.«128590_j18262200943266_2_alg».proof.Proof.Gen.KernelIdeal.Frame
import proofs.«128590_j18262200943266_2_alg».proof.Proof.KernelBlock
import proofs.«128590_j18262200943266_2_alg».proof.Proof.KernelPieces
import Idealize.ShloMosaic.Lib.Pipeline.Value

noncomputable section

namespace Cert.KernelIdeal.Mins

open Cert.KernelIdeal Cert.KernelIdeal.Gen Idealize.ShloMosaic Idealize.ShloMosaic.TcCoe Idealize.SL.Sem
open Idealize.ShloMosaic.ValueIdx Chamfer
open Idealize.ShloMosaic.Pipeline (Dat)

variable (m : (ℓ : Loc nD τ sig) → Buf (Elt Ideal) ℓ) (ρ : Dev nD → PrngReg)

/-- The expanded squared distance between point `n` of batch `b` in `A` and point `q` of batch `b` in `B`. -/
def dist (A : S16x2048x3.Idx → EReal) (B : S16x3x2048.Idx → EReal) (b : Fin 16) (n q : Fin 2048) : EReal :=
  Block.entry (fun k => A (ix3 b n k)) (fun k => B (ix3 b k q))

/-- For each point of `A`, the least distance to a point of `B` of the same batch. -/
def rowMins (A : S16x2048x3.Idx → EReal) (B : S16x3x2048.Idx → EReal) (b : Fin 16) (n : Fin 2048) : EReal :=
  least fun q : Fin 2048 => dist A B b n q

/-- For each point of `B`, the least distance to a point of `A` of the same batch. -/
def colMins (A : S16x2048x3.Idx → EReal) (B : S16x3x2048.Idx → EReal) (b : Fin 16) (q : Fin 2048) : EReal :=
  least fun n : Fin 2048 => dist A B b n q

/-- The printed index maps over the 32 grid points: the batch is t / 2, the row tile t mod 2. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = t.val % 2 ∧ win0_2.index t (2 : Fin 3) = 0
    ∧ win0_3.index t (0 : Fin 3) = t.val / 2 ∧ win0_3.index t (1 : Fin 3) = 0 ∧ win0_3.index t (2 : Fin 3) = 0 :=
  (by decide +kernel : ∀ t : Fin grid0.N, _)

/-! ## The input blocks at a point are the input arrays read where the point's block sits -/

theorem iblk0_apply (c : Dev nD) (t : Fin cfg0.N) (u : Fin 1) (p : Fin 1024) (k : Fin 3) (b : Fin 16) (n : Fin 2048)
    (hb : b.val = t.val / 2) (hn : n.val = t.val % 2 * 1024 + p.val) :
    (iblk m c 0 t : Vec Ideal S1x1024x3 .f32) (ix3 u p k) = V m c main_arg0 (ix3 b n k) := by
  obtain ⟨e0, e1, e2, -⟩ := idx_facts t
  show V m c main_arg0 (((cfg0.win 0).blk t).view.emb (ix3 u p k)) = V m c main_arg0 (ix3 b n k)
  refine congrArg (V m c main_arg0) (funext fun a => Fin.ext ?_)
  have hu : u.val = 0 := by omega
  match a with
  | ⟨0, _⟩ => show win0_0.index t (0 : Fin 3) * 1 + 1 * u.val = b.val; omega
  | ⟨1, _⟩ => show win0_0.index t (1 : Fin 3) * 1024 + 1 * p.val = n.val; omega
  | ⟨2, _⟩ => show win0_0.index t (2 : Fin 3) * 3 + 1 * k.val = k.val; omega

theorem iblk1_apply (c : Dev nD) (t : Fin cfg0.N) (u : Fin 1) (k : Fin 3) (q : Fin 2048) (b : Fin 16)
    (hb : b.val = t.val / 2) :
    (iblk m c 1 t : Vec Ideal S1x3x2048 .f32) (ix3 u k q) = V m c main_v0 (ix3 b k q) := by
  obtain ⟨-, -, -, e0, e1, e2, -⟩ := idx_facts t
  show V m c main_v0 (((cfg0.win 1).blk t).view.emb (ix3 u k q)) = V m c main_v0 (ix3 b k q)
  refine congrArg (V m c main_v0) (funext fun a => Fin.ext ?_)
  have hu : u.val = 0 := by omega
  match a with
  | ⟨0, _⟩ => show win0_1.index t (0 : Fin 3) * 1 + 1 * u.val = b.val; omega
  | ⟨1, _⟩ => show win0_1.index t (1 : Fin 3) * 3 + 1 * k.val = k.val; omega
  | ⟨2, _⟩ => show win0_1.index t (2 : Fin 3) * 2048 + 1 * q.val = q.val; omega

/-- The distance tile of point `t`: row `p` of the tile is row `n = 1024·(t mod 2) + p` of batch `t / 2`. -/
theorem tile_apply (c : Dev nD) (t : Fin cfg0.N) (b : Fin 16) (hb : b.val = t.val / 2) (p : Fin 1024) (n : Fin 2048)
    (hn : n.val = t.val % 2 * 1024 + p.val) (q : Fin 2048) :
    k0_pay2 (F := Ideal) (iblk m c 0 t) (iblk m c 1 t) (ix2 p q) = dist (V m c main_arg0) (V m c main_v0) b n q :=
  (Block.pay2_apply (iblk m c 0 t) (iblk m c 1 t) p q).trans
    (congrArg₂ Block.entry (funext fun k => iblk0_apply m c t 0 p k b n hb hn) (funext fun k => iblk1_apply m c t 0 k q b hb))

/-! ## What the output blocks hold after a point -/

theorem outs_fst (c : Dev nD) (t : Fin cfg0.N) :
    (outsAt0 m c t.val t.isLt).1 = k0_pay3 (iblk m c 0 t) (iblk m c 1 t) := by
  by_cases h0 : t.val % 2 = 0
  · refine (congrArg Prod.fst (outsAt0_A m c t h0)).trans ?_
    dsimp only
    exact Pieces.out_A_2 (F := Ideal) _ _ _ _ _ _ _ _ _ _ _ _ _
  · refine (congrArg Prod.fst (outsAt0_B m c t h0)).trans ?_
    dsimp only
    exact Pieces.out_B_2 (F := Ideal) _ _ _ _ _ _ _ _ _ _ _ _ _ _

theorem outs_snd_A (c : Dev nD) (t : Fin cfg0.N) (h0 : t.val % 2 = 0) :
    (outsAt0 m c t.val t.isLt).2 = k0_pay1 (k0_pay5 (iblk m c 0 t) (iblk m c 1 t) (k0_pay4 (F := Ideal))) := by
  refine (congrArg Prod.snd (outsAt0_A m c t h0)).trans ?_
  dsimp only
  exact Pieces.out_A_3 (F := Ideal) _ _ _ _ _ _ _ _ _ _ _ _ _

theorem outs_snd_B (c : Dev nD) (t : Fin cfg0.N) (h0 : ¬t.val % 2 = 0) :
    (outsAt0 m c t.val t.isLt).2 = k0_pay1 (k0_pay5 (iblk m c 0 t) (iblk m c 1 t)
      (outsAt0 m c (t.val - 1) (Nat.lt_of_le_of_lt (Nat.sub_le _ _) t.isLt)).2) := by
  refine (congrArg Prod.snd (outsAt0_B m c t h0)).trans ?_
  dsimp only
  exact Pieces.out_B_3 (F := Ideal) _ _ _ _ _ _ _ _ _ _ _ _ _ _

/-- After any point, row `p` of the first output block holds the row minimum of row `n` of the point's batch. -/
theorem out2_apply (c : Dev nD) (t : Fin cfg0.N) (b : Fin 16) (hb : b.val = t.val / 2) (u : Fin 1) (p : Fin 1024) (w : Fin 1)
    (n : Fin 2048) (hn : n.val = t.val % 2 * 1024 + p.val) :
    (outsAt0 m c t.val t.isLt).1 (ix3 u p w) = rowMins (V m c main_arg0) (V m c main_v0) b n := by
  rw [outs_fst m c t]
  exact (Block.pay3_apply (iblk m c 0 t) (iblk m c 1 t) u p w).trans (least_congr fun q => tile_apply m c t b hb p n hn q)

/-- After the ODD point of a batch, column `q` of the second output block holds the minimum over all 2048 rows. -/
theorem out3_apply (c : Dev nD) (t : Fin cfg0.N) (h1 : t.val % 2 = 1) (b : Fin 16) (hb : b.val = t.val / 2) (u w : Fin 1)
    (q : Fin 2048) :
    (outsAt0 m c t.val t.isLt).2 (ix3 u w q) = colMins (V m c main_arg0) (V m c main_v0) b q := by
  have hB : ¬t.val % 2 = 0 := by omega
  have hlt : t.val - 1 < cfg0.N := Nat.lt_of_le_of_lt (Nat.sub_le _ _) t.isLt
  have hA : (⟨t.val - 1, hlt⟩ : Fin cfg0.N).val % 2 = 0 := by show (t.val - 1) % 2 = 0; omega
  have hb' : b.val = (⟨t.val - 1, hlt⟩ : Fin cfg0.N).val / 2 := by show b.val = (t.val - 1) / 2; omega
  have e : (outsAt0 m c (t.val - 1) hlt).2
      = k0_pay1 (k0_pay5 (iblk m c 0 ⟨t.val - 1, hlt⟩) (iblk m c 1 ⟨t.val - 1, hlt⟩) (k0_pay4 (F := Ideal))) :=
    outs_snd_A m c ⟨t.val - 1, hlt⟩ hA
  rw [outs_snd_B m c t hB, e]
  refine (Block.pay1_apply _ u w q).trans ?_
  refine (Block.pay5_apply (iblk m c 0 t) (iblk m c 1 t) _ w q).trans ?_
  refine (congrArg₂ min ((Block.pay1_apply _ 0 w q).trans
    ((Block.pay5_apply (iblk m c 0 ⟨t.val - 1, hlt⟩) (iblk m c 1 ⟨t.val - 1, hlt⟩) _ w q).trans
      (congrArg₂ min (Block.pay4_apply _)
        (least_congr fun p => tile_apply m c ⟨t.val - 1, hlt⟩ b hb' p ⟨p.val, by have := p.isLt; omega⟩
          (by show p.val = (t.val - 1) % 2 * 1024 + p.val; omega) q))))
    (least_congr fun p => tile_apply m c t b hb p ⟨1024 + p.val, by have := p.isLt; omega⟩
      (by show 1024 + p.val = t.val % 2 * 1024 + p.val; omega) q)).trans ?_
  exact least_halves fun n => dist (V m c main_arg0) (V m c main_v0) b n q

end Cert.KernelIdeal.Mins

end
-- ==== Proof.KernelArrays.lean ====
/-
  The two output arrays after the whole grid.

  Every point writes its first output block back: block t of the [16, 2048, 1] array is rows
  1024·(t mod 2) … of batch t / 2, so the 32 blocks tile the array and it ends holding the row minima. The second
  output block is written back only after the odd point of each batch, when it holds the minima over all 2048 rows;
  the 16 blocks written tile the [16, 1, 2048] array.
-/
import proofs.«128590_j18262200943266_2_alg».proof.Proof.KernelMins

noncomputable section

namespace Cert.KernelIdeal.Mins

open Cert.KernelIdeal Cert.KernelIdeal.Gen Idealize.ShloMosaic Idealize.ShloMosaic.TcCoe Idealize.SL.Sem
open Idealize.ShloMosaic.ValueIdx Chamfer
open Idealize.ShloMosaic.Pipeline (Dat)

variable (m : (ℓ : Loc nD τ sig) → Buf (Elt Ideal) ℓ) (ρ : Dev nD → PrngReg)

/-- The first output array: at (b, n, 0) the least distance from point n of batch b. -/
def G2 (A : S16x2048x3.Idx → EReal) (B : S16x3x2048.Idx → EReal) : S16x2048x1.Idx → EReal := fun j =>
  rowMins A B ⟨(j 0).val, (j 0).isLt⟩ ⟨(j 1).val, (j 1).isLt⟩

/-- The second output array: at (b, 0, q) the least distance to point q of batch b. -/
def G3 (A : S16x2048x3.Idx → EReal) (B : S16x3x2048.Idx → EReal) : S16x1x2048.Idx → EReal := fun j =>
  colMins A B ⟨(j 0).val, (j 0).isLt⟩ ⟨(j 2).val, (j 2).isLt⟩

/-! ## The first output -/

/-- What point `t` writes back is block `t` of the row minima. -/
theorem flushed2_eq (c : Dev nD) (t : Fin cfg0.N) :
    (dats m 0 c).flushed 2 t = ((cfg0.win 2).blk t).view.read (Elt Ideal) (G2 (V m c main_arg0) (V m c main_v0)) := by
  show (cfg0.win 2).cut (grid0.coords t) ((dats m 0 c).after 2 t) = _
  rw [after0_2]
  obtain ⟨-, -, -, -, -, -, e0, e1, e2, -⟩ := idx_facts t
  have hN : t.val < 32 := lt_of_lt_of_eq t.isLt N_0
  funext j
  show (outsAt0 m c t.val t.isLt).1 j = G2 (V m c main_arg0) (V m c main_v0) (((cfg0.win 2).blk t).view.emb j)
  obtain ⟨u, p, w, rfl⟩ : ∃ (u : Fin 1) (p : Fin 1024) (w : Fin 1), j = ix3 u p w := ⟨j 0, j 1, j 2, eq_ix3 j⟩
  have hu : u.val = 0 := by omega
  have hw : w.val = 0 := by omega
  have hp : p.val < 1024 := p.isLt
  have hemb : ((cfg0.win 2).blk t).view.emb (ix3 u p w)
      = ix3 (⟨t.val / 2, by omega⟩ : Fin 16) (⟨t.val % 2 * 1024 + p.val, by omega⟩ : Fin 2048) (0 : Fin 1) := by
    funext a; apply Fin.ext
    match a with
    | ⟨0, _⟩ => show win0_2.index t (0 : Fin 3) * 1 + 1 * u.val = t.val / 2; omega
    | ⟨1, _⟩ => show win0_2.index t (1 : Fin 3) * 1024 + 1 * p.val = t.val % 2 * 1024 + p.val; omega
    | ⟨2, _⟩ => show win0_2.index t (2 : Fin 3) * 1 + 1 * w.val = 0; omega
  rw [hemb]
  exact out2_apply m c t ⟨t.val / 2, by omega⟩ rfl u p w ⟨t.val % 2 * 1024 + p.val, by omega⟩ rfl

/-- An index of the first output array is in point `t`'s block iff each coordinate is in the block's range. -/
theorem mem_blk2 (t : Fin cfg0.N) (i : S16x2048x1.Idx) :
    i ∈ ((cfg0.win 2).blk t).view.set ↔ ∀ a : Fin 3, win0_2.index t a * S1x1024x1.size a ≤ (i a).val
      ∧ (i a).val < win0_2.index t a * S1x1024x1.size a + S1x1024x1.size a := by
  show i ∈ ((View.whole main_v1_0).slice (win0_2.rect t)).set ↔ _
  rw [View.set_slice_whole, Rect.mem_set_unit]
  exact Iff.rfl

/-- Row n of batch b lies in the block of point 2b + n / 1024. -/
theorem cover2 (i : S16x2048x1.Idx) :
    ∃ t : Fin cfg0.N, (cfg0.win 2).flush t = true ∧ i ∈ ((cfg0.win 2).blk t).view.set := by
  have h0 : (i 0).val < 16 := (i 0).isLt
  have h1 : (i 1).val < 2048 := (i 1).isLt
  have h2 : (i 2).val < 1 := (i 2).isLt
  obtain ⟨t, ht⟩ : ∃ t : Fin cfg0.N, t.val = 2 * (i 0).val + (i 1).val / 1024 :=
    ⟨⟨2 * (i 0).val + (i 1).val / 1024, by rw [show cfg0.N = 32 from N_0]; omega⟩, rfl⟩
  obtain ⟨-, -, -, -, -, -, e0, e1, e2, -⟩ := idx_facts t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1 ≤ (i 2).val ∧ (i 2).val < win0_2.index t (2 : Fin 3) * 1 + 1; omega

/-- The first output array ends holding the row minima. -/
theorem final2 (c : Dev nD) : (dats m 0 c).arrAt 2 cfg0.N = G2 (V m c main_arg0) (V m c main_v0) :=
  (dats m 0 c).arrAt_eq_of_cover 2 (G2 (V m c main_arg0) (V m c main_v0)) (fun t _ => flushed2_eq m c t) cover2

/-! ## The second output -/

/-- What the odd point `t` of a batch writes back is the batch's block of the column minima. -/
theorem flushed3_eq (c : Dev nD) (t : Fin cfg0.N) (hf : (cfg0.win 3).flush t = true) :
    (dats m 0 c).flushed 3 t = ((cfg0.win 3).blk t).view.read (Elt Ideal) (G3 (V m c main_arg0) (V m c main_v0)) := by
  have h1 : t.val % 2 = 1 := (flush0_3 t).mp hf
  show (cfg0.win 3).cut (grid0.coords t) ((dats m 0 c).after 3 t) = _
  rw [after0_3]
  obtain ⟨-, -, -, -, -, -, -, -, -, e0, e1, e2⟩ := idx_facts t
  have hN : t.val < 32 := lt_of_lt_of_eq t.isLt N_0
  funext j
  show (outsAt0 m c t.val t.isLt).2 j = G3 (V m c main_arg0) (V m c main_v0) (((cfg0.win 3).blk t).view.emb j)
  obtain ⟨u, w, q, rfl⟩ : ∃ (u w : Fin 1) (q : Fin 2048), j = ix3 u w q := ⟨j 0, j 1, j 2, eq_ix3 j⟩
  have hu : u.val = 0 := by omega
  have hw : w.val = 0 := by omega
  have hemb : ((cfg0.win 3).blk t).view.emb (ix3 u w q) = ix3 (⟨t.val / 2, by omega⟩ : Fin 16) (0 : Fin 1) q := by
    funext a; apply Fin.ext
    match a with
    | ⟨0, _⟩ => show win0_3.index t (0 : Fin 3) * 1 + 1 * u.val = t.val / 2; omega
    | ⟨1, _⟩ => show win0_3.index t (1 : Fin 3) * 1 + 1 * w.val = 0; omega
    | ⟨2, _⟩ => show win0_3.index t (2 : Fin 3) * 2048 + 1 * q.val = q.val; omega
  rw [hemb]
  exact out3_apply m c t h1 ⟨t.val / 2, by omega⟩ rfl u w q

theorem mem_blk3 (t : Fin cfg0.N) (i : S16x1x2048.Idx) :
    i ∈ ((cfg0.win 3).blk t).view.set ↔ ∀ a : Fin 3, win0_3.index t a * S1x1x2048.size a ≤ (i a).val
      ∧ (i a).val < win0_3.index t a * S1x1x2048.size a + S1x1x2048.size a := by
  show i ∈ ((View.whole main_v1_1).slice (win0_3.rect t)).set ↔ _
  rw [View.set_slice_whole, Rect.mem_set_unit]
  exact Iff.rfl

/-- Batch b's block is written back by point 2b + 1. -/
theorem cover3 (i : S16x1x2048.Idx) :
    ∃ t : Fin cfg0.N, (cfg0.win 3).flush t = true ∧ i ∈ ((cfg0.win 3).blk t).view.set := by
  have h0 : (i 0).val < 16 := (i 0).isLt
  have h1 : (i 1).val < 1 := (i 1).isLt
  have h2 : (i 2).val < 2048 := (i 2).isLt
  obtain ⟨t, ht⟩ : ∃ t : Fin cfg0.N, t.val = 2 * (i 0).val + 1 :=
    ⟨⟨2 * (i 0).val + 1, by rw [show cfg0.N = 32 from N_0]; omega⟩, rfl⟩
  obtain ⟨-, -, -, -, -, -, -, -, -, e0, e1, e2⟩ := idx_facts t
  refine ⟨t, (flush0_3 t).mpr (by omega), ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 2048 ≤ (i 2).val ∧ (i 2).val < win0_3.index t (2 : Fin 3) * 2048 + 2048; omega

/-- The second output array ends holding the column minima. -/
theorem final3 (c : Dev nD) : (dats m 0 c).arrAt 3 cfg0.N = G3 (V m c main_arg0) (V m c main_v0) :=
  (dats m 0 c).arrAt_eq_of_cover 3 (G3 (V m c main_arg0) (V m c main_v0)) (flushed3_eq m c) cover3

end Cert.KernelIdeal.Mins

end
-- ==== Proof.Tail.lean ====
/-
  What both programs do last, and the common form of their result.

  Both programs end by averaging two [16, 2048] arrays over all their entries (a sum from zero divided by 32768),
  adding the two averages and multiplying by one. That scalar is one function of the two arrays; it is never opened:
  the two programs are shown to feed it equal arrays.

  The arrays come from a distance d(b, n, q) between point n and point q of batch b: for every n the least over q,
  and for every q the least over n.
-/
import Idealize.ShloMosaic.PureOps.Ideal.Laws
import Idealize.ShloMosaic.Lib.ValueIdx
import proofs.«128590_j18262200943266_2_alg».proof.Proof.SqDist

noncomputable section

namespace Chamfer

open Idealize.ShloMosaic

/-- The average of `A` plus the average of `B`, times one. -/
def meanSum (hr : (⟨2, ![16, 2048]⟩ : Shape).ReducesTo [0, 1] (⟨0, ![]⟩ : Shape)) (hu : 0 < (⟨0, ![]⟩ : Shape).numel)
    (A B : FVec Ideal ⟨2, ![16, 2048]⟩ .f32) : FVec Ideal ⟨0, ![]⟩ .f32 :=
  mulf (constant (F := Ideal) (⟨0, ![]⟩ : Shape) .f32 0x3F800000#32)
    (addf
      (Host.divf (Host.reduceAdd (F := Ideal) A (constant (F := Ideal) (⟨0, ![]⟩ : Shape) .f32 0x00000000#32) hr hu)
        (constant (F := Ideal) (⟨0, ![]⟩ : Shape) .f32 0x47000000#32))
      (Host.divf (Host.reduceAdd (F := Ideal) B (constant (F := Ideal) (⟨0, ![]⟩ : Shape) .f32 0x00000000#32) hr hu)
        (constant (F := Ideal) (⟨0, ![]⟩ : Shape) .f32 0x47000000#32)))

/-- For every point `n` of every batch, the least distance to a point `q` of the batch. -/
def rowLeasts (d : Fin 16 → Fin 2048 → Fin 2048 → EReal) : FVec Ideal ⟨2, ![16, 2048]⟩ .f32 := fun j =>
  least fun q : Fin 2048 => d ⟨(j 0).val, (j 0).isLt⟩ ⟨(j 1).val, (j 1).isLt⟩ q

/-- For every point `q` of every batch, the least distance to a point `n` of the batch. -/
def colLeasts (d : Fin 16 → Fin 2048 → Fin 2048 → EReal) : FVec Ideal ⟨2, ![16, 2048]⟩ .f32 := fun j =>
  least fun n : Fin 2048 => d ⟨(j 0).val, (j 0).isLt⟩ n ⟨(j 1).val, (j 1).isLt⟩

/-- The scalar both programs compute from a distance. -/
def chamfer (hr : (⟨2, ![16, 2048]⟩ : Shape).ReducesTo [0, 1] (⟨0, ![]⟩ : Shape)) (hu : 0 < (⟨0, ![]⟩ : Shape).numel)
    (d : Fin 16 → Fin 2048 → Fin 2048 → EReal) : FVec Ideal ⟨0, ![]⟩ .f32 :=
  meanSum hr hu (rowLeasts d) (colLeasts d)

end Chamfer

end
-- ==== Proof.LibUnitAxes.lean ====
/-
  A trailing or a middle unit axis dropped by a shape cast, read at an index: the row-major position of (i, j, 0) in
  [a, b, 1] is (i·b + j)·1 + 0 = i·b + j, and that of (i, 0, j) in [a, 1, b] is (i·1 + 0)·b + j = i·b + j, the
  position of (i, j) in [a, b].
-/
import Idealize.ShloMosaic.Lib.Pipeline.Value
import Idealize.ShloMosaic.Lib.ValueIdx

noncomputable section

namespace Cert.UnitAxes

open Idealize.ShloMosaic Idealize.ShloMosaic.ValueIdx

variable {α : Type}

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.UnitAxes

end
-- ==== Proof.KernelRun.lean ====
/-
  The kernel's whole program, read: its result is the common scalar of the expanded distance.

  Before the grid the program transposes its second input to [16, 3, 2048]; after the grid it drops the unit axes of
  the two output arrays, which leaves the row minima and the column minima as [16, 2048] arrays, and ends with the
  shared averaging.
-/
import proofs.«128590_j18262200943266_2_alg».proof.Proof.KernelArrays
import proofs.«128590_j18262200943266_2_alg».proof.Proof.Tail
import Idealize.ShloMosaic.Lib.StableHlo.Run
import Idealize.ShloMosaic.Lib.ValueLayout
import proofs.«128590_j18262200943266_2_alg».proof.Proof.LibUnitAxes

noncomputable section

namespace Cert.KernelIdeal.Mins

open Cert.KernelIdeal Cert.KernelIdeal.Gen Idealize.ShloMosaic Idealize.ShloMosaic.TcCoe Idealize.SL.Sem
open Idealize.ShloMosaic.ValueIdx Chamfer Idealize.ShloMosaic.StableHlo
open Idealize.ShloMosaic.Pipeline (Dat)

variable (m : (ℓ : Loc nD τ sig) → Buf (Elt Ideal) ℓ) (ρ : Dev nD → PrngReg)

/-- The array the second window stages is the second input, transposed. -/
theorem V_main_v0 (c : Dev nD) :
    (V m c main_v0 : S16x3x2048.Idx → EReal)
      = transpose S16x3x2048 [0, 2, 1] (m ((c.tc : Thread nD τ).loc main_arg1)) transposes_S16x2048x3_S16x3x2048_0_2_1 := by
  show StableHlo.after hostOps0 (fun b => m (c, b)) (Proc.devRef .tc main_v0) = _
  after_results

/-- The first output array without its unit axis: the row minima. -/
theorem squeeze2 (A : S16x2048x3.Idx → EReal) (B : S16x3x2048.Idx → EReal) :
    (shapeCast S16x2048 (G2 A B) shapeCasts_S16x2048x1_S16x2048 : S16x2048.Idx → EReal) = rowLeasts (dist A B) := by
  funext j
  obtain ⟨b, n, rfl⟩ : ∃ (b : Fin 16) (n : Fin 2048), j = ix2 b n := ⟨j 0, j 1, eq_ix2 j⟩
  exact Cert.UnitAxes.shapeCast_ab1_ab_apply (G2 A B) _ b n

/-- The second output array without its unit axis: the column minima. -/
theorem squeeze3 (A : S16x2048x3.Idx → EReal) (B : S16x3x2048.Idx → EReal) :
    (shapeCast S16x2048 (G3 A B) shapeCasts_S16x1x2048_S16x2048 : S16x2048.Idx → EReal) = colLeasts (dist A B) := by
  funext j
  obtain ⟨b, q, rfl⟩ : ∃ (b : Fin 16) (q : Fin 2048), j = ix2 b q := ⟨j 0, j 1, eq_ix2 j⟩
  exact Cert.UnitAxes.shapeCast_a1b_ab_apply (G3 A B) _ b q

/-- What the operations after the grid leave in the result: the common scalar of the arrays as the grid found them. -/
theorem tail_eq (c : Dev nD) :
    Pipeline.afterTail₀ cfgs (dats m) 0 (V0 m) [hostOps1] c main_v9
      = chamfer reducesTo_S16x2048_S_d0_1 h_S_ (dist (V m c main_arg0) (V m c main_v0)) := by
  unfold Pipeline.afterTail₀
  show StableHlo.after hostOps1 _ (Proc.devRef .tc main_v9) = _
  after_results
  have e2 : Pipeline.withArrays (cfgs 0).spec c (V0 m c) (fun w => (dats m 0 c).arrAt w (cfgs 0).N) (Proc.devRef .tc main_v1_0)
      = G2 (V m c main_arg0) (V m c main_v0) :=
    (Pipeline.withArrays_arr spec0 launch0.win.arr_inj c _ _ 2).trans (final2 m c)
  have e3 : Pipeline.withArrays (cfgs 0).spec c (V0 m c) (fun w => (dats m 0 c).arrAt w (cfgs 0).N) (Proc.devRef .tc main_v1_1)
      = G3 (V m c main_arg0) (V m c main_v0) :=
    (Pipeline.withArrays_arr spec0 launch0.win.arr_inj c _ _ 3).trans (final3 m c)
  rw [e2, e3]
  show meanSum reducesTo_S16x2048_S_d0_1 h_S_
      (shapeCast S16x2048 (G2 (V m c main_arg0) (V m c main_v0)) shapeCasts_S16x2048x1_S16x2048)
      (shapeCast S16x2048 (G3 (V m c main_arg0) (V m c main_v0)) shapeCasts_S16x1x2048_S16x2048) = _
  rw [squeeze2, squeeze3]
  rfl

/-- The kernel's run, read: the result at the common scalar of the expanded distance between the first input and
    the transposed second input, both inputs unchanged. -/
theorem run : θ_run defs (onTc (τ := τ) (main (F := Ideal))) ⟨m, fun _ => 0, ρ⟩ fun r => ∀ c : Dev nD,
      r.2.mem ((c.tc : Thread nD τ).loc main_v9)
        = chamfer reducesTo_S16x2048_S_d0_1 h_S_ (dist (m ((c.tc : Thread nD τ).loc main_arg0))
            (transpose S16x3x2048 [0, 2, 1] (m ((c.tc : Thread nD τ).loc main_arg1)) transposes_S16x2048x3_S16x3x2048_0_2_1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v9 (Pipeline.mem_restRefs_of main_v9 (by decide) (by decide))).trans
        ((tail_eq m c).trans (by rw [V_main_arg0 m c, V_main_v0 m c])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Mins

end
-- ==== Proof.RefMins.lean ====
/-
  The reference, read: its result is the common scalar of the squared distance Σₖ (x[b,n,k] − y[b,q,k])².

  The reference lays both inputs out over [16, 2048, 2048, 3], subtracts, squares and sums over the last axis (from
  zero), giving the squared distance at (b, n, q); it then takes the least over q for every n and the least over n
  for every q, both from +∞, and ends with the shared averaging.
-/
import proofs.«128590_j18262200943266_2_alg».proof.Proof.Gen.ReferenceIdeal.Read
import proofs.«128590_j18262200943266_2_alg».proof.Proof.ReduceAt
import proofs.«128590_j18262200943266_2_alg».proof.Proof.Tail

noncomputable section

namespace Cert.ReferenceIdeal.Mins

open Cert.ReferenceIdeal Cert.ReferenceIdeal.Gen Cert.ReferenceIdeal.Read Idealize.ShloMosaic
open Idealize.ShloMosaic.ValueIdx Chamfer

/-- The squared distance between point `n` of batch `b` in `x` and point `q` of batch `b` in `y`. -/
def sqdist (x y : S16x2048x3.Idx → EReal) (b : Fin 16) (n q : Fin 2048) : EReal :=
  ∑ k : Fin 3, (x (ix3 b n k) - y (ix3 b q k)) * (x (ix3 b n k) - y (ix3 b q k))

/-- The summed squares at (b, n, q). -/
theorem v6_apply (x y : (⟨S16x2048x3, .f32⟩ : BufTy).Contents (Elt Ideal)) (b : Fin 16) (n q : Fin 2048) :
    val_main_v6 (F := Ideal) x y (ix3 b n q) = sqdist x y b n q := by
  rw [val_main_v6_apply]
  rw [show val_main_cst (F := Ideal) (Shape.Idx.first h_S_) = (0 : EReal) from Ideal.ofBits_zero_f32, zero_add]
  refine Finset.sum_congr rfl fun k _ => ?_
  have e0 : idx_main_v0 (idx_main_v2 (idx_main_v6 (ix3 b n q) k)) = ix3 b n k :=
    funext fun a => Fin.ext (by match a with | ⟨0, _⟩ => rfl | ⟨1, _⟩ => rfl | ⟨2, _⟩ => rfl)
  have e1 : idx_main_v1 (idx_main_v3 (idx_main_v6 (ix3 b n q) k)) = ix3 b q k :=
    funext fun a => Fin.ext (by match a with | ⟨0, _⟩ => rfl | ⟨1, _⟩ => rfl | ⟨2, _⟩ => rfl)
  rw [val_main_v5_apply, val_main_v4_apply, val_main_v2_apply, val_main_v3_apply, val_main_v0_apply, val_main_v1_apply,
    e0, e1]
  rfl

/-- The least over the points of `y`, for point `n` of `x`. -/
theorem v7_eq (x y : (⟨S16x2048x3, .f32⟩ : BufTy).Contents (Elt Ideal)) :
    val_main_v7 (F := Ideal) x y = rowLeasts (sqdist x y) := by
  funext j
  obtain ⟨b, n, rfl⟩ : ∃ (b : Fin 16) (n : Fin 2048), j = ix2 b n := ⟨j 0, j 1, eq_ix2 j⟩
  unfold val_main_v7
  refine (hostLeast_last (val_main_v6 (F := Ideal) x y) reducesTo_S16x2048x2048_S16x2048_d2 (by decide) h_S_ b n).trans ?_
  exact least_congr fun q => v6_apply x y b n q

/-- The least over the points of `x`, for point `q` of `y`. -/
theorem v8_eq (x y : (⟨S16x2048x3, .f32⟩ : BufTy).Contents (Elt Ideal)) :
    val_main_v8 (F := Ideal) x y = colLeasts (sqdist x y) := by
  funext j
  obtain ⟨b, q, rfl⟩ : ∃ (b : Fin 16) (q : Fin 2048), j = ix2 b q := ⟨j 0, j 1, eq_ix2 j⟩
  unfold val_main_v8
  refine (hostLeast_mid (val_main_v6 (F := Ideal) x y) reducesTo_S16x2048x2048_S16x2048_d1 (by decide) h_S_ b q).trans ?_
  exact least_congr fun n => v6_apply x y b n q

/-- The reference's result is the common scalar of the squared distance. -/
theorem result_eq (x y : (⟨S16x2048x3, .f32⟩ : BufTy).Contents (Elt Ideal)) :
    val_main_v14 (F := Ideal) x y = chamfer reducesTo_S16x2048_S_d0_1 h_S_ (sqdist x y) := by
  have e : val_main_v14 (F := Ideal) x y
      = meanSum reducesTo_S16x2048_S_d0_1 h_S_ (val_main_v7 (F := Ideal) x y) (val_main_v8 (F := Ideal) x y) := rfl
  rw [e, v7_eq, v8_eq]
  rfl

end Cert.ReferenceIdeal.Mins

end
-- ==== Proof.Bridge.lean ====
/-
  On real inputs the kernel's distance is the reference's.

  The kernel's distance between point n of x and point q of y (read through the transposition of y) is the expanded
  form |a|² + |b|² − 2⟨a, b⟩ cut off at zero; the reference's is Σₖ (aₖ − bₖ)². When all six coordinates are real
  numbers the two agree. This is the one place the precondition is used.
-/
import proofs.«128590_j18262200943266_2_alg».proof.Proof.KernelMins
import proofs.«128590_j18262200943266_2_alg».proof.Proof.RefMins
import Idealize.ShloMosaic.Lib.ValueLayout

noncomputable section

namespace Chamfer

open Idealize.ShloMosaic Idealize.ShloMosaic.ValueIdx

theorem dist_eq_sqdist (x y : (⟨3, ![16, 2048, 3]⟩ : Shape).Idx → EReal)
    (ht : (⟨3, ![16, 2048, 3]⟩ : Shape).Transposes [0, 2, 1] (⟨3, ![16, 3, 2048]⟩ : Shape))
    (hx : ∀ i, ∃ r : ℝ, x i = (r : EReal)) (hy : ∀ i, ∃ r : ℝ, y i = (r : EReal)) (b : Fin 16) (n q : Fin 2048) :
    Cert.KernelIdeal.Mins.dist x (transpose (⟨3, ![16, 3, 2048]⟩ : Shape) [0, 2, 1] y ht) b n q
      = Cert.ReferenceIdeal.Mins.sqdist x y b n q := by
  choose rx hrx using hx
  choose ry hry using hy
  unfold Cert.KernelIdeal.Mins.dist Cert.ReferenceIdeal.Mins.sqdist
  have ea : (fun k : Fin 3 => x (ix3 b n k)) = fun k => ((rx (ix3 b n k) : ℝ) : EReal) := funext fun k => hrx _
  have eb : (fun k : Fin 3 => transpose (⟨3, ![16, 3, 2048]⟩ : Shape) [0, 2, 1] y ht (ix3 b k q))
      = fun k => ((ry (ix3 b q k) : ℝ) : EReal) :=
    funext fun k => (transpose_ix3_021_apply y ht b k q).trans (hry _)
  rw [ea, eb, Cert.KernelIdeal.Block.entry_real]
  exact Finset.sum_congr rfl fun k _ => by rw [hrx, hry]

end Chamfer

end
-- ==== Proof.Finite.lean ====
/-
  The precondition, read: every entry of both inputs is a real number.

  The precondition says that for each input the absolute value of every entry is below +∞, all of these facts
  conjoined. An extended real whose absolute value max(x, −x) is below +∞ is neither +∞ nor −∞.
-/
import proofs.«128590_j18262200943266_2_alg».proof.Pre_finite_inputs
import proofs.«128590_j18262200943266_2_alg».proof.Proof.Gen.Pre_finite_inputs
import Idealize.ShloMosaic.Lib.ReduceAll
import Idealize.ShloMosaic.Lib.ValueIdx
import Idealize.ShloMosaic.PureOps.Ideal.Laws
import proofs.«128590_j18262200943266_2_alg».proof.Proof.ReduceAt

noncomputable section

namespace Cert.Pre_finite_inputs.Real

open Idealize.ShloMosaic Cert.Pre_finite_inputs

instance : Subsingleton S_.Idx := ⟨fun a b => funext fun d => d.elim0⟩

/-- An extended real with |x| < +∞ is a real number. -/
theorem real_of_lt (x : EReal)
    (h : Ideal.cmp .olt (FloatOps.hostAbsf (F := Ideal) (φ := .f32) x) (Ideal.ofBits .f32 0x7F800000#32) = 1#1) :
    ∃ r : ℝ, x = (r : EReal) := by
  rw [Chamfer.ofBits_inf] at h
  induction x using EReal.rec with
  | bot => exfalso; revert h; simp [Ideal.cmp, Ideal.absf_def]
  | coe r => exact ⟨r, rfl⟩
  | top => exfalso; revert h; simp [Ideal.cmp, Ideal.absf_def]

/-- Under the precondition every entry of both inputs is a real number. -/
theorem real_of_pre (x0 x1 : FVec Ideal S16x2048x3 .f32) (h : Cert.Pre_finite_inputs.fn (F := Ideal) x0 x1 = fun _ => 1#1) :
    (∀ i, ∃ r : ℝ, x0 i = (r : EReal)) ∧ ∀ i, ∃ r : ℝ, x1 i = (r : EReal) := by
  have h0 := congrFun h ValueIdx.ix0
  dsimp only [Cert.Pre_finite_inputs.fn] at h0
  obtain ⟨ha, hb⟩ := IntOp.andi_eq_one.1 h0
  exact ⟨fun i => real_of_lt (x0 i) (Host.reduce_andi_all _ _ _ _ _ ha i),
    fun i => real_of_lt (x1 i) (Host.reduce_andi_all _ _ _ _ _ hb i)⟩

end Cert.Pre_finite_inputs.Real

end
-- ==== Proof.lean ====
/-
  Bidirectional nearest-point (chamfer) distance between two sets of 2048 points of three coordinates, 16 batches:
  for every point of the first set the squared distance to the nearest point of the second, and for every point of
  the second set the squared distance to the nearest point of the first, each averaged over all 32768 points, the two
  averages added.

  The reference forms every squared distance as Σₖ (aₖ − bₖ)². The kernel forms it as |a|² + |b|² − 2⟨a, b⟩, the
  inner products by one matrix product per tile of 1024 points, and cuts the result off below at zero; it takes the
  row minima of each tile directly and accumulates the column minima over the two tiles of a batch, starting from +∞.

  Over the extended reals, with every input entry a real number (the precondition):
    · |a|² + |b|² − 2⟨a, b⟩ = Σₖ (aₖ − bₖ)² ≥ 0, so the cut-off changes nothing (Proof/SqDist.lean, Proof/Bridge.lean);
    · the minimum over 2048 points is the minimum of the minima over the two halves, and +∞ is neutral
      (Proof/SqDist.lean);
    · both programs end with the same averaging of the same two arrays (Proof/Tail.lean), so their results agree.
  The kernel's side is read in Proof/KernelBlock.lean (one tile), Proof/KernelPieces.lean and Proof/KernelMins.lean
  (one grid point), Proof/KernelArrays.lean (the whole grid) and Proof/KernelRun.lean (the whole program); the
  reference's in Proof/RefMins.lean; the precondition in Proof/Finite.lean.
  The kernel's idealization rewrote no operation, so there is nothing to preserve.
-/
import proofs.«128590_j18262200943266_2_alg».proof.Defs
import proofs.«128590_j18262200943266_2_alg».proof.Proof.Gen.Kernel
import proofs.«128590_j18262200943266_2_alg».proof.Proof.Gen.Kernel.Frame
import proofs.«128590_j18262200943266_2_alg».proof.Proof.Gen.KernelIdeal
import proofs.«128590_j18262200943266_2_alg».proof.Proof.Gen.KernelIdeal.Frame
import proofs.«128590_j18262200943266_2_alg».proof.Proof.Gen.ReferenceIdeal
import proofs.«128590_j18262200943266_2_alg».proof.Proof.Gen.Pre_finite_inputs
import proofs.«128590_j18262200943266_2_alg».proof.Proof.Gen.ReferenceIdeal.Run
import proofs.«128590_j18262200943266_2_alg».proof.Proof.Gen.ReferenceIdeal.Read
import proofs.«128590_j18262200943266_2_alg».proof.Proof.KernelRun
import proofs.«128590_j18262200943266_2_alg».proof.Proof.RefMins
import proofs.«128590_j18262200943266_2_alg».proof.Proof.Bridge
import proofs.«128590_j18262200943266_2_alg».proof.Proof.Finite
import Idealize.ShloMosaic.Adequacy
import Idealize.ShloMosaic.Init

noncomputable section

namespace Cert.Proof

open Idealize.ShloMosaic Idealize.SL.Sem Chamfer

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the common scalar of the squared distance of the inputs: the reference by its own reading,
    the kernel because on real entries its expanded distance is the squared distance. -/
theorem algebraic : Cert.algebraic_KernelIdeal_ReferenceIdeal := by
  intro m ρ m' ρ' hpre hagree
  refine ⟨fun c => chamfer Cert.ReferenceIdeal.Gen.reducesTo_S16x2048_S_d0_1 Cert.ReferenceIdeal.Gen.h_S_
    (Cert.ReferenceIdeal.Mins.sqdist
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))), ?_, ?_⟩
  · refine (θ_run Cert.KernelIdeal.defs _ _).mono (fun r h c => ⟨(h c).1.trans ?_, (h c).2⟩)
      (Cert.KernelIdeal.Mins.run m ρ)
    obtain ⟨hx, hy⟩ := Cert.Pre_finite_inputs.Real.real_of_pre _ _ (hpre c)
    exact congrArg (chamfer _ _)
      (funext fun b => funext fun n => funext fun q => dist_eq_sqdist _ _ _ hx hy b n q)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v14_eq, Cert.ReferenceIdeal.Mins.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
